-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S1600000, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with every buffer's final contents named.

  @main is four segments in order: a stretch of host operations, kernel region 0, a second stretch of host operations,
  kernel region 1.  The frame module names a core's buffer contents at every boundary between segments: `W0` at launch,
  `W1` after the first stretch, `W2` after region 0 (its output array at what the grid steps' write-backs leave), `W3`
  after the second stretch and `W4` after region 1.  The thread state carried from segment to segment is "every buffer
  that outlives a region holds the boundary's contents", so when the last segment returns every such buffer of core `c`
  holds `W4 m ρ c`, and a final memory can be read against that state buffer by buffer.  The frame claim keeps of this
  only the argument buffers; the value claim needs the result buffer too, so here the run is stated with the reading of
  ALL those buffers, and the result and the arguments are then picked out of it.
-/
import proofs.«101802_j32547262169571_1_alg».proof.Proof.Gen.KernelIdeal.Frame

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final memory each buffer of core `c`
    that outlives the regions holds `W4 m ρ c` of it: the library's theorem for a program that is a list of segments,
    launched with the pipelines' own launch element and nothing else, the first thread state made core by core from the
    launch memory, the last one read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is handed on as it is; the cores' own shares of it are all empty
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- core by core: the launch memory's buffers ARE the first boundary's contents; the generator register and the
      -- core's empty debt ride along, the rest of what the launch deals is dropped
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W4 m ρ c b)
    (hfin := fun c s' => by
      -- every buffer the last thread state holds is read off the final state
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-- The run with the RESULT buffer and the argument buffers picked out: the result ends at `W4`'s contents of it, every
    argument as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v45 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.KernelIdeal.NamedRun

end
-- ==== Proof.Combine.lean ====
/-
  One graph-convolution layer's linear step, entry by entry, over the extended reals.

  For a node-feature array `x` (rows × 64), the neighbourhood means `a` (rows × 64), two 64 × 64 weight
  matrices `wl`, `wr` and a bias `b` of 64 entries, the layer's output at row `r` and column `c` is

      (Σ_k a[r,k] · wl[c,k]  +  b[c])  +  Σ_k x[r,k] · wr[c,k],

  that is `a · wlᵀ + b + x · wrᵀ` with the additions grouped as written.  Row `r` of the output depends on `x`
  and `a` through their row `r` only, so a block of rows of the output is the same expression of the
  corresponding blocks of rows of `x` and `a` (`combineAt_congr`).  No finiteness is used anywhere: both
  programs compute this very expression, sums and all.
-/
import Idealize.ShloMosaic.PureOps.Ideal
import Idealize.ShloMosaic.Lib.ValueIdx

noncomputable section

namespace Cert.Sage

open Idealize.ShloMosaic Idealize.ShloMosaic.ValueIdx

/-- An array of `n` rows of 64 features. -/
abbrev Rows (n : Nat) : Shape := ⟨2, ![n, 64]⟩
/-- A 64 × 64 weight matrix. -/
abbrev Wt : Shape := ⟨2, ![64, 64]⟩
/-- A bias of 64 entries. -/
abbrev Bias : Shape := ⟨1, ![64]⟩

/-- Entry `(r, c)` of `a · wlᵀ + b + x · wrᵀ`. -/
def combineAt {n : Nat} (x a : (Rows n).Idx → EReal) (wl : Wt.Idx → EReal) (b : Bias.Idx → EReal)
    (wr : Wt.Idx → EReal) (r : Fin n) (c : Fin 64) : EReal :=
  (∑ k : Fin 64, a (ix2 r k) * wl (ix2 c k) + b (ix1 c)) + ∑ k : Fin 64, x (ix2 r k) * wr (ix2 c k)

/-- The whole array `a · wlᵀ + b + x · wrᵀ`. -/
def combine {n : Nat} (x a : (Rows n).Idx → EReal) (wl : Wt.Idx → EReal) (b : Bias.Idx → EReal)
    (wr : Wt.Idx → EReal) : (Rows n).Idx → EReal :=
  fun i => combineAt x a wl b wr (i 0 : Fin n) (i 1 : Fin 64)

theorem combine_apply {n : Nat} (x a : (Rows n).Idx → EReal) (wl : Wt.Idx → EReal) (b : Bias.Idx → EReal)
    (wr : Wt.Idx → EReal) (r : Fin n) (c : Fin 64) :
    combine x a wl b wr (ix2 r c) = combineAt x a wl b wr r c := rfl

/-- An entry of the combine reads `x` and `a` along one row, the weights along one row each and one bias entry:
    two settings that agree there give the same entry — whatever the numbers of rows of the two settings. -/
theorem combineAt_congr {n n' : Nat} {x a : (Rows n).Idx → EReal} {x' a' : (Rows n').Idx → EReal}
    {wl wl' wr wr' : Wt.Idx → EReal} {b b' : Bias.Idx → EReal} {r : Fin n} {r' : Fin n'} {c : Fin 64}
    (hx : ∀ k : Fin 64, x (ix2 r k) = x' (ix2 r' k)) (ha : ∀ k : Fin 64, a (ix2 r k) = a' (ix2 r' k))
    (hwl : ∀ k : Fin 64, wl (ix2 c k) = wl' (ix2 c k)) (hb : b (ix1 c) = b' (ix1 c))
    (hwr : ∀ k : Fin 64, wr (ix2 c k) = wr' (ix2 c k)) :
    combineAt x a wl b wr r c = combineAt x' a' wl' b' wr' r' c := by
  unfold combineAt
  rw [hb]
  refine congrArg₂ (· + ·) (congrArg (· + b' (ix1 c)) (Finset.sum_congr rfl fun k _ => ?_)) (Finset.sum_congr rfl fun k _ => ?_)
  · rw [ha k, hwl k]
  · rw [hx k, hwr k]

end Cert.Sage

end
-- ==== Proof.KernelBlock.lean ====
/-
  What one grid step of either kernel region computes, entry by entry.

  A step loads a block `x` of 5000 rows of the features, the block `a` of the same rows of the neighbourhood means,
  the two 64 × 64 weight matrices `wl`, `wr` and the bias as a 1 × 64 row `b`, and stores

      (a · wlᵀ + b) + x · wrᵀ

  into the output block.  Over the extended reals the roundings to bf16 in front of the two products are the identity,
  a product into the zero accumulator is the plain sum over the contracted axis, the transposed weight matrix read at
  `(k, q)` is the weight matrix at `(q, k)`, and the bias row broadcast over the 5000 rows reads `b (0, q)`: entry
  `(p, q)` of the stored block is `Cert.Sage.combineAt` of the loaded blocks.  Both regions' bodies are this
  expression (they differ in where an identity shape cast sits).
-/
import proofs.«101802_j32547262169571_1_alg».proof.Proof.Gen.KernelIdeal.Skeleton
import proofs.«101802_j32547262169571_1_alg».proof.Proof.Combine
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.Sage Idealize.ShloMosaic Idealize.ShloMosaic.ValueIdx

/-- The dimension numbers of both products: rows × contraction times contraction × columns. -/
abbrev D := dot_S5000x64_S64x64_S5000x64_1_0_0_1_n_n

/-- The left operand's row coordinate is the output's. -/
theorem lhs_row (i : S5000x64.Idx) (κ : D.contr.Idx) : (D.lhsIdx i κ 0).val = (i 0).val := by
  unfold DotDims.lhsIdx
  rw [dif_neg (show ¬(0 : Fin S5000x64.rank) ∈ D.lhsBatch by decide), dif_pos (show (0 : Fin S5000x64.rank) ∈ D.lhsNonContracting by decide)]
  rfl

/-- The right operand's column coordinate is the output's. -/
theorem rhs_col (i : S5000x64.Idx) (κ : D.contr.Idx) : (D.rhsIdx i κ 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- A block of rows times a TRANSPOSED weight matrix into the zero accumulator: entry `(p, q)` is
    `Σ_k l[p,k] · w[q,k]`. -/
theorem matmul_transposed_apply (l : FVec Ideal S5000x64 .bf16) (w : FVec Ideal S64x64 .bf16) (p : Fin 5000) (q : Fin 64) :
    matmul D none l (transpose S64x64 [1, 0] w transposes_S64x64_p1_0_S64x64) (constant S5000x64 .f32 0x00000000#32) (ix2 p q)
      = ∑ k : Fin 64, l (ix2 p k) * w (ix2 q k) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (D.lhsIdx_val_of_single rfl _ _).trans hk)
  rw [el]
  refine congrArg (l (ix2 p k) * ·) ?_
  exact transpose_apply [1, 0] w transposes_S64x64_p1_0_S64x64 _ (ix2 q k) (fun b => match b with
    | ⟨0, _⟩ => by show k.val = _; exact ((D.rhsIdx_val_of_single rfl (ix2 p q) _).trans hk).symm
    | ⟨1, _⟩ => by show q.val = _; exact (rhs_col (ix2 p q) _).symm)

/-- The bias row broadcast over the rows reads the row's entry of the column. -/
theorem bias_row_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => rfl
    | ⟨1, _⟩ => rfl)

/-- REGION 0's stored block at `(p, q)`: `(a · wlᵀ + b) + x · wrᵀ` of the loaded blocks. -/
theorem pay0_apply (x a : Vec Ideal S5000x64 .f32) (wl wr : Vec Ideal S64x64 .f32) (b : Vec Ideal S1x64 .f32)
    (p : Fin 5000) (q : Fin 64) :
    k0_pay1 (F := Ideal) x a wl wr b (ix2 p q) = combineAt x a wl (fun j => b (ix2 0 (j 0))) wr p q := by
  unfold k0_pay1
  show (_ + _) + _ = _
  unfold combineAt
  refine congrArg₂ (· + ·) (congrArg₂ (· + ·) ?_ ?_) ?_
  · refine (matmul_transposed_apply _ _ p q).trans (Finset.sum_congr rfl fun k _ => ?_)
    show shapeCast S5000x64 a _ (ix2 p k) * wl (ix2 q k) = _
    rw [shapeCast_self]
  · refine (bias_row_apply _ p q).trans ?_
    show shapeCast S1x64 b _ (ix2 0 q) = _
    rw [shapeCast_self]
  · exact matmul_transposed_apply _ _ p q

/-- REGION 1's stored block at `(p, q)`: the same expression. -/
theorem pay1_apply (x a : Vec Ideal S5000x64 .f32) (wl wr : Vec Ideal S64x64 .f32) (b : Vec Ideal S1x64 .f32)
    (p : Fin 5000) (q : Fin 64) :
    k1_pay1 (F := Ideal) x a wl wr b (ix2 p q) = combineAt x a wl (fun j => b (ix2 0 (j 0))) wr p q := by
  unfold k1_pay1
  show (_ + _) + _ = _
  unfold combineAt
  refine congrArg₂ (· + ·) (congrArg₂ (· + ·) ?_ ?_) ?_
  · refine (matmul_transposed_apply _ _ p q).trans (Finset.sum_congr rfl fun k _ => ?_)
    show shapeCast S5000x64 a _ (ix2 p k) * wl (ix2 q k) = _
    rw [shapeCast_self]
  · refine (bias_row_apply _ p q).trans ?_
    show shapeCast S1x64 b _ (ix2 0 q) = _
    rw [shapeCast_self]
  · refine (matmul_transposed_apply _ _ p q).trans (Finset.sum_congr rfl fun k _ => ?_)
    show shapeCast S5000x64 x _ (ix2 p k) * wr (ix2 q k) = _
    rw [shapeCast_self]

end Cert.KernelIdeal.Block

end
-- ==== Proof.Region0.lean ====
/-
  REGION 0's output array, as one function of the arrays the region finds.

  The region walks 20 grid steps; step `t` loads rows `5000·t … 5000·t + 4999` of the feature array and of the
  neighbourhood means, the two whole weight matrices and the whole bias row, and writes back rows
  `5000·t … 5000·t + 4999` of the output.  What a step stores is `Cert.Sage.combineAt` of the loaded blocks
  (`Block.pay0_apply`), and an entry of the combine reads the features and the means along its own row only, so the
  stored block is the block of rows of the WHOLE-array combine of the arrays the region finds.  The 20 blocks of rows
  cover the 100000 rows (row `r` lies in block `r / 5000`), so the output array ends as that whole-array combine.
-/
import proofs.«101802_j32547262169571_1_alg».proof.Proof.Gen.KernelIdeal.Frame
import proofs.«101802_j32547262169571_1_alg».proof.Proof.KernelBlock
import Idealize.ShloMosaic.Lib.Pipeline.Value

set_option maxRecDepth 16384

noncomputable section

namespace Cert.KernelIdeal.Region0

open Cert.KernelIdeal Cert.KernelIdeal.Gen Cert.KernelIdeal.Block Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- Where each window's block sits at step `t`, decided over the 20 steps: the two row-blocked inputs and the output
    are at block row `t`, the weights and the bias at their only block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of step `t`'s block is row `5000·t + p` of the array. -/
def rowOf (t : Fin cfg0.N) (p : Fin 5000) : Fin 100000 :=
  ⟨t.val * 5000 + p.val, by have h := t.isLt; have hp := p.isLt; have hN : cfg0.N = 20 := N_0; omega⟩

/-- The output array after the region: `a · wlᵀ + b + x · wrᵀ` of the arrays the region finds. -/
def result (c : Dev nD) : S100000x64.Idx → EReal :=
  combine (n := 100000) (V c main_arg0) (V c main_v22) (V c main_arg2) (fun j => V c main_v23 (ix2 0 (j 0))) (V c main_arg4)

/-- WHAT STEP `t` WRITES BACK is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e50, e51⟩ := block_indices t
  funext j
  obtain ⟨p, q, rfl⟩ : ∃ (p : Fin 5000) (q : Fin 64), j = ix2 p q := ⟨j 0, j 1, eq_ix2 j⟩
  have hp := p.isLt
  have hq := q.isLt
  have hemb : ((cfg0.win 5).blk t).view.emb (ix2 p q) = ix2 (rowOf t p) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (iblk0 V c 0 t) (iblk0 V c 1 t) (iblk0 V c 2 t) (iblk0 V c 4 t) (iblk0 V c 3 t) (ix2 p q)
    = result V c (((cfg0.win 5).blk t).view.emb (ix2 p q))
  rw [hemb]
  refine (pay0_apply (iblk0 V c 0 t) (iblk0 V c 1 t) (iblk0 V c 2 t) (iblk0 V c 4 t) (iblk0 V c 3 t) p q).trans ?_
  show _ = combineAt (V c main_arg0) (V c main_v22) (V c main_arg2) (fun j => V c main_v23 (ix2 0 (j 0))) (V c main_arg4) (rowOf t p) q
  refine combineAt_congr (fun k => ?_) (fun k => ?_) (fun k => ?_) ?_ (fun k => ?_)
  · have hk := k.isLt
    show V c main_arg0 (((cfg0.win 0).blk t).view.emb (ix2 p k)) = V c main_arg0 (ix2 (rowOf t p) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · have hk := k.isLt
    show V c main_v22 (((cfg0.win 1).blk t).view.emb (ix2 p k)) = V c main_v22 (ix2 (rowOf t p) k)
    refine congrArg (V c main_v22) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · have hk := k.isLt
    show V c main_arg2 (((cfg0.win 2).blk t).view.emb (ix2 q k)) = V c main_arg2 (ix2 q k)
    refine congrArg (V c main_arg2) (funext fun a => Fin.ext ?_)
    match a with
    | ⟨0, _⟩ => show win0_2.index t (0 : Fin 2) * 64 + 1 * q.val = q.val; omega
    | ⟨1, _⟩ => show win0_2.index t (1 : Fin 2) * 64 + 1 * k.val = k.val; omega
  · show V c main_v23 (((cfg0.win 3).blk t).view.emb (ix2 0 q)) = V c main_v23 (ix2 0 q)
    refine congrArg (V c main_v23) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  · have hk := k.isLt
    show V c main_arg4 (((cfg0.win 4).blk t).view.emb (ix2 q k)) = V c main_arg4 (ix2 q k)
    refine congrArg (V c main_arg4) (funext fun a => Fin.ext ?_)
    match a with
    | ⟨0, _⟩ => show win0_4.index t (0 : Fin 2) * 64 + 1 * q.val = q.val; omega
    | ⟨1, _⟩ => show win0_4.index t (1 : Fin 2) * 64 + 1 * k.val = k.val; omega

/-- An index of the output array is in step `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Every index of the output array lies in the block of step `row / 5000`, which writes back. -/
theorem covered (i : S100000x64.Idx) :
    ∃ t : Fin cfg0.N, (cfg0.win 5).flush t = true ∧ i ∈ ((cfg0.win 5).blk t).view.set := by
  have h0 : (i 0).val < 100000 := (i 0).isLt
  have h1 : (i 1).val < 64 := (i 1).isLt
  have hN : cfg0.N = 20 := N_0
  have ht : (i 0).val / 5000 < cfg0.N := by rw [hN]; omega
  obtain ⟨-, -, -, -, -, -, -, -, -, -, e50, e51⟩ := block_indices ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e51]
    omega

/-- THE OUTPUT ARRAY after the region is the whole-array combine of the arrays the region finds. -/
theorem arr_eq (c : Dev nD) : (dat0 V c).arrAt 5 cfg0.N = result V c :=
  (dat0 V c).arrAt_eq_of_cover 5 (result V c) (fun t _ => flushed_eq V c t) covered

end Cert.KernelIdeal.Region0

end
-- ==== Proof.Region1.lean ====
/-
  REGION 1's output array, as one function of the arrays the region finds: the same argument as for region 0, over
  the second pipeline (the features it reads are region 0's output, the means those of that output).

  The region walks 20 grid steps; step `t` loads rows `5000·t … 5000·t + 4999` of the feature array and of the
  neighbourhood means, the two whole weight matrices and the whole bias row, and writes back rows
  `5000·t … 5000·t + 4999` of the output.  What a step stores is `Cert.Sage.combineAt` of the loaded blocks
  (`Block.pay1_apply`), and an entry of the combine reads the features and the means along its own row only, so the
  stored block is the block of rows of the WHOLE-array combine of the arrays the region finds.  The 20 blocks of rows
  cover the 100000 rows (row `r` lies in block `r / 5000`), so the output array ends as that whole-array combine.
-/
import proofs.«101802_j32547262169571_1_alg».proof.Proof.Gen.KernelIdeal.Frame
import proofs.«101802_j32547262169571_1_alg».proof.Proof.KernelBlock
import Idealize.ShloMosaic.Lib.Pipeline.Value

set_option maxRecDepth 16384

noncomputable section

namespace Cert.KernelIdeal.Region1

open Cert.KernelIdeal Cert.KernelIdeal.Gen Cert.KernelIdeal.Block Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- Where each window's block sits at step `t`, decided over the 20 steps: the two row-blocked inputs and the output
    are at block row `t`, the weights and the bias at their only block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of step `t`'s block is row `5000·t + p` of the array. -/
def rowOf (t : Fin cfg1.N) (p : Fin 5000) : Fin 100000 :=
  ⟨t.val * 5000 + p.val, by have h := t.isLt; have hp := p.isLt; have hN : cfg1.N = 20 := N_1; omega⟩

/-- The output array after the region: `a · wlᵀ + b + x · wrᵀ` of the arrays the region finds. -/
def result (c : Dev nD) : S100000x64.Idx → EReal :=
  combine (n := 100000) (V c main_v24) (V c main_v43) (V c main_arg5) (fun j => V c main_v44 (ix2 0 (j 0))) (V c main_arg7)

/-- WHAT STEP `t` WRITES BACK is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e50, e51⟩ := block_indices t
  funext j
  obtain ⟨p, q, rfl⟩ : ∃ (p : Fin 5000) (q : Fin 64), j = ix2 p q := ⟨j 0, j 1, eq_ix2 j⟩
  have hp := p.isLt
  have hq := q.isLt
  have hemb : ((cfg1.win 5).blk t).view.emb (ix2 p q) = ix2 (rowOf t p) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show k1_pay1 (iblk1 V c 0 t) (iblk1 V c 1 t) (iblk1 V c 2 t) (iblk1 V c 4 t) (iblk1 V c 3 t) (ix2 p q)
    = result V c (((cfg1.win 5).blk t).view.emb (ix2 p q))
  rw [hemb]
  refine (pay1_apply (iblk1 V c 0 t) (iblk1 V c 1 t) (iblk1 V c 2 t) (iblk1 V c 4 t) (iblk1 V c 3 t) p q).trans ?_
  show _ = combineAt (V c main_v24) (V c main_v43) (V c main_arg5) (fun j => V c main_v44 (ix2 0 (j 0))) (V c main_arg7) (rowOf t p) q
  refine combineAt_congr (fun k => ?_) (fun k => ?_) (fun k => ?_) ?_ (fun k => ?_)
  · have hk := k.isLt
    show V c main_v24 (((cfg1.win 0).blk t).view.emb (ix2 p k)) = V c main_v24 (ix2 (rowOf t p) k)
    refine congrArg (V c main_v24) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · have hk := k.isLt
    show V c main_v43 (((cfg1.win 1).blk t).view.emb (ix2 p k)) = V c main_v43 (ix2 (rowOf t p) k)
    refine congrArg (V c main_v43) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  · have hk := k.isLt
    show V c main_arg5 (((cfg1.win 2).blk t).view.emb (ix2 q k)) = V c main_arg5 (ix2 q k)
    refine congrArg (V c main_arg5) (funext fun a => Fin.ext ?_)
    match a with
    | ⟨0, _⟩ => show win1_2.index t (0 : Fin 2) * 64 + 1 * q.val = q.val; omega
    | ⟨1, _⟩ => show win1_2.index t (1 : Fin 2) * 64 + 1 * k.val = k.val; omega
  · show V c main_v44 (((cfg1.win 3).blk t).view.emb (ix2 0 q)) = V c main_v44 (ix2 0 q)
    refine congrArg (V c main_v44) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  · have hk := k.isLt
    show V c main_arg7 (((cfg1.win 4).blk t).view.emb (ix2 q k)) = V c main_arg7 (ix2 q k)
    refine congrArg (V c main_arg7) (funext fun a => Fin.ext ?_)
    match a with
    | ⟨0, _⟩ => show win1_4.index t (0 : Fin 2) * 64 + 1 * q.val = q.val; omega
    | ⟨1, _⟩ => show win1_4.index t (1 : Fin 2) * 64 + 1 * k.val = k.val; omega

/-- An index of the output array is in step `t`'s block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Every index of the output array lies in the block of step `row / 5000`, which writes back. -/
theorem covered (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := N_1
  have ht : (i 0).val / 5000 < cfg1.N := by rw [hN]; omega
  obtain ⟨-, -, -, -, -, -, -, -, -, -, e50, e51⟩ := block_indices ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e51]
    omega

/-- THE OUTPUT ARRAY after the region is the whole-array combine of the arrays the region finds. -/
theorem arr_eq (c : Dev nD) : (dat1 V c).arrAt 5 cfg1.N = result V c :=
  (dat1 V c).arrAt_eq_of_cover 5 (result V c) (fun t _ => flushed_eq V c t) covered

end Cert.KernelIdeal.Region1

end
-- ==== Proof.KernelHost.lean ====
/-
  The host operations of the idealized kernel program, read back: what each region finds in its arrays.

  Before EACH of the two regions the host computes the same thing from a feature array `x` (100000 × 64) and the
  edge list `e` (2 × 1600000, sources in row 0 and destinations in row 1):

    * `deg e`   — for every node, the number of edges that end in it: ones scattered and added at the destinations;
    * `agg x e` — for every node, the sum of the source rows of `x` over the edges that end in it (a gather of the
                   source rows, negative sources wrapped by the number of nodes, scattered and added at the
                   destinations), divided by `max (deg e) 1` along the row: the mean of the neighbours' features;

  and the layer's bias of 64 entries recast as a 1 × 64 row.  The first region finds `x` = the program's first argument;
  the second finds `x` = the first region's output.  Nothing else is written, so every other buffer a region reads is the
  launch memory's.
-/
import proofs.«101802_j32547262169571_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- An edge list, a feature array, a per-node count. -/
abbrev Edges : Type := (⟨S2x1600000, .i32⟩ : BufTy).Contents (Elt Ideal)
abbrev Feat : Type := (⟨S100000x64, .f32⟩ : BufTy).Contents (Elt Ideal)

/-- Row 0 of the edge list: the edges' sources. -/
def srcRow (e : Edges) : (⟨S1600000, .i32⟩ : BufTy).Contents (Elt Ideal) :=
  shapeCast S1600000 (extractStridedSlice S1x1600000 ![0, 0] e slices_S2x1600000_S1x1600000_0_0) shapeCasts_S1x1600000_S1600000

/-- Row 1 of the edge list: the edges' destinations. -/
def dstRow (e : Edges) : (⟨S1600000, .i32⟩ : BufTy).Contents (Elt Ideal) :=
  shapeCast S1600000 (extractStridedSlice S1x1600000 ![1, 0] e slices_S2x1600000_S1x1600000_1_0) shapeCasts_S1x1600000_S1600000

/-- The destinations as a column of scatter indices. -/
def dstIdx (e : Edges) : (⟨S1600000x1, .i32⟩ : BufTy).Contents (Elt Ideal) :=
  broadcastInDim S1600000x1 ![0] bcast_S1600000_S1600000x1_0 (dstRow e)

/-- The sources as a column of gather indices, a negative source wrapped by the number of nodes. -/
def srcIdx (e : Edges) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- For every node, the number of edges that end in it. -/
def deg (e : Edges) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (dstIdx e)
    (broadcastInDim S1600000 ![] bcast_S_S1600000 (constant (F := Ideal) S_ .f32 0x3F800000#32))

/-- For every node, the mean of the features of the sources of the edges that end in it (the sum over those edges
    divided by `max deg 1`). -/
def agg (x : Feat) (e : Edges) : Feat :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (dstIdx e)
      (Host.gather gather_S100000x64_S1600000x1_S1600000x64_1_0_n_n_0_1_164 x (srcIdx e)))
    (broadcastInDim S100000x64 ![0, 1] bcast_S100000x1_S100000x64_0_1
      (broadcastInDim S100000x1 ![0] bcast_S100000_S100000x1_0
        (maximumf (deg e) (broadcastInDim S100000 ![] bcast_S_S100000 (constant (F := Ideal) S_ .f32 0x3F800000#32)))))

/-- A bias of 64 entries recast as a 1 × 64 row. -/
def biasRow (b : (⟨S64, .f32⟩ : BufTy).Contents (Elt Ideal)) : (⟨S1x64, .f32⟩ : BufTy).Contents (Elt Ideal) :=
  shapeCast S1x64 b shapeCasts_S64_S1x64

variable (m : (ℓ : Loc nD τ sig) → Buf (Elt Ideal) ℓ) (ρ : Dev nD → PrngReg)

/-! ## What region 0 finds -/

theorem entry0_x (c : Dev nD) : V1 m ρ c main_arg0 = m ((c : Thread nD τ).loc main_arg0) := by
  show StableHlo.after hostOps0 (W0 m ρ c) (Proc.devRef .tc main_arg0) = _
  after_results_simp <;> rfl

theorem entry0_wl (c : Dev nD) : V1 m ρ c main_arg2 = m ((c : Thread nD τ).loc main_arg2) := by
  show StableHlo.after hostOps0 (W0 m ρ c) (Proc.devRef .tc main_arg2) = _
  after_results_simp <;> rfl

theorem entry0_wr (c : Dev nD) : V1 m ρ c main_arg4 = m ((c : Thread nD τ).loc main_arg4) := by
  show StableHlo.after hostOps0 (W0 m ρ c) (Proc.devRef .tc main_arg4) = _
  after_results_simp <;> rfl

theorem entry0_agg (c : Dev nD) :
    V1 m ρ c main_v22 = agg (m ((c : Thread nD τ).loc main_arg0)) (m ((c : Thread nD τ).loc main_arg1)) := by
  show StableHlo.after hostOps0 (W0 m ρ c) (Proc.devRef .tc main_v22) = _
  after_results_simp <;> rfl

theorem entry0_bias (c : Dev nD) : V1 m ρ c main_v23 = biasRow (m ((c : Thread nD τ).loc main_arg3)) := by
  show StableHlo.after hostOps0 (W0 m ρ c) (Proc.devRef .tc main_v23) = _
  after_results_simp <;> rfl

/-! ## What region 0 leaves of the buffers the second stretch reads -/

theorem mid_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl

theorem mid_wl (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

theorem mid_bias (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

theorem mid_wr (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

/-! ## What region 1 finds -/

theorem entry1_x (c : Dev nD) : V3 m ρ c main_v24 = W2 m ρ c (Proc.devRef .tc main_v24) := by
  show StableHlo.after hostOps1 (W2 m ρ c) (Proc.devRef .tc main_v24) = _
  after_results_simp <;> rfl

theorem entry1_wl (c : Dev nD) : V3 m ρ c main_arg5 = m ((c : Thread nD τ).loc main_arg5) := by
  refine Eq.trans ?_ (mid_wl m ρ c)
  show StableHlo.after hostOps1 (W2 m ρ c) (Proc.devRef .tc main_arg5) = _
  after_results_simp <;> rfl

theorem entry1_wr (c : Dev nD) : V3 m ρ c main_arg7 = m ((c : Thread nD τ).loc main_arg7) := by
  refine Eq.trans ?_ (mid_wr m ρ c)
  show StableHlo.after hostOps1 (W2 m ρ c) (Proc.devRef .tc main_arg7) = _
  after_results_simp <;> rfl

theorem entry1_agg (c : Dev nD) :
    V3 m ρ c main_v43 = agg (W2 m ρ c (Proc.devRef .tc main_v24)) (m ((c : Thread nD τ).loc main_arg1)) := by
  rw [← mid_edges m ρ c]
  show StableHlo.after hostOps1 (W2 m ρ c) (Proc.devRef .tc main_v43) = _
  after_results_simp <;> rfl

theorem entry1_bias (c : Dev nD) : V3 m ρ c main_v44 = biasRow (m ((c : Thread nD τ).loc main_arg6)) := by
  rw [← mid_bias m ρ c]
  show StableHlo.after hostOps1 (W2 m ρ c) (Proc.devRef .tc main_v44) = _
  after_results_simp <;> rfl

end Cert.KernelIdeal.HostValue

end
-- ==== Proof.KernelValue.lean ====
/-
  The idealized kernel program's result as a function of its arguments.

  Region 0's output array is the combine of what it finds (`Region0.arr_eq`), and it finds the features `x`, their
  neighbourhood means `agg x e`, and the first layer's weights and bias (`HostValue.entry0_*`): the first layer's
  output `y = agg x e · wlᵀ + b + x · wrᵀ`.  Region 1 finds `y`, the means `agg y e` of `y` over the same edges and the
  second layer's parameters, so the program's result is the second layer of the same function applied to `y`.
  (The 1 × 64 bias row read at `(0, q)` is the bias at `q`.)
-/
import proofs.«101802_j32547262169571_1_alg».proof.Proof.Region0
import proofs.«101802_j32547262169571_1_alg».proof.Proof.Region1
import proofs.«101802_j32547262169571_1_alg».proof.Proof.KernelHost

set_option maxRecDepth 16384

noncomputable section

namespace Cert.KernelIdeal.ResultValue

open Cert.KernelIdeal Cert.KernelIdeal.Gen Cert.KernelIdeal.HostValue Cert.Sage
open Idealize.ShloMosaic Idealize.ShloMosaic.TcCoe Idealize.ShloMosaic.ValueIdx Idealize.SL.Sem

/-- A bias recast as a 1 × 64 row and read along that row is the bias. -/
theorem bias_entries (b : (⟨S64, .f32⟩ : BufTy).Contents (Elt Ideal)) :
    (fun j : S64.Idx => biasRow b (ix2 0 (j 0))) = b := by
  funext j
  unfold biasRow
  refine (shapeCast_addUnit_apply ![64] b shapeCasts_S64_S1x64 (ix2 0 (j 0))).trans (congrArg b ?_)
  funext a
  match a with
  | ⟨0, _⟩ => rfl

variable (m : (ℓ : Loc nD τ sig) → Buf (Elt Ideal) ℓ) (ρ : Dev nD → PrngReg)

/-- One layer of the network as the kernel program computes it: the combine of the features, their means over the
    edges, and the layer's parameters. -/
def layer (x : Feat) (e : Edges) (wl : (⟨S64x64, .f32⟩ : BufTy).Contents (Elt Ideal))
    (b : (⟨S64, .f32⟩ : BufTy).Contents (Elt Ideal)) (wr : (⟨S64x64, .f32⟩ : BufTy).Contents (Elt Ideal)) : Feat :=
  combine (n := 100000) x (agg x e) wl b wr

/-- After region 0 its output array holds the first layer of the arguments. -/
theorem first_layer (c : Dev nD) :
    W2 m ρ c (Proc.devRef .tc main_v24)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ((Region0.arr_eq (V1 m ρ) c).trans ?_)
  unfold Region0.result layer
  rw [entry0_x m ρ c, entry0_agg m ρ c, entry0_wl m ρ c, entry0_bias m ρ c, entry0_wr m ρ c, bias_entries]

/-- After region 1 its output array — the program's result — holds the second layer of region 0's output. -/
theorem second_layer (c : Dev nD) :
    W4 m ρ c (Proc.devRef .tc main_v45)
      = layer (W2 m ρ c (Proc.devRef .tc main_v24)) (m ((c : Thread nD τ).loc main_arg1)) (m ((c : Thread nD τ).loc main_arg5))
          (m ((c : Thread nD τ).loc main_arg6)) (m ((c : Thread nD τ).loc main_arg7)) := by
  refine (W4_arr m ρ c 5).trans ((Region1.arr_eq (V3 m ρ) c).trans ?_)
  unfold Region1.result layer
  rw [entry1_x m ρ c, entry1_agg m ρ c, entry1_wl m ρ c, entry1_bias m ρ c, entry1_wr m ρ c, bias_entries]

/-- THE KERNEL PROGRAM'S RESULT: the second layer of the first layer of the arguments. -/
theorem result_eq (c : Dev nD) :
    W4 m ρ c (Proc.devRef .tc main_v45)
      = layer (layer (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg1)) (m ((c : Thread nD τ).loc main_arg5))
          (m ((c : Thread nD τ).loc main_arg6)) (m ((c : Thread nD τ).loc main_arg7)) := by
  rw [second_layer m ρ c, first_layer m ρ c]

end Cert.KernelIdeal.ResultValue

end
-- ==== Proof.RefLayers.lean ====
/-
  The reference program's result, stage by stage, as two layers of the same function.

  The reference computes, twice in a row, from a feature array `x`: the neighbourhood means of `x` over the edge list
  (its stage `val_main_v22` for the first layer), then `means · wlᵀ + b + x · wrᵀ` with the host's matrix products,
  the transposes as separate operations and the bias broadcast along the rows.  Read at an entry `(r, c)` each of the
  two products is the sum over `k` of a row-`r` entry times the weight matrix's entry `(c, k)`, and the broadcast bias
  is its entry `c`: each layer is `Cert.Sage.combine` of its inputs (`layer1`, `layer2`).  The second layer's means are
  the same operations as the first layer's, applied to the first layer's output (`means_again`).
-/
import proofs.«101802_j32547262169571_1_alg».proof.Proof.Gen.ReferenceIdeal.Read
import proofs.«101802_j32547262169571_1_alg».proof.Proof.Combine

noncomputable section

namespace Cert.ReferenceIdeal.RefValue

open Cert.ReferenceIdeal Cert.ReferenceIdeal.Read Cert.Sage
open Idealize.ShloMosaic Idealize.ShloMosaic.ValueIdx

abbrev Feat : Type := (⟨S100000x64, .f32⟩ : BufTy).Contents (Elt Ideal)
abbrev Edges : Type := (⟨S2x1600000, .i32⟩ : BufTy).Contents (Elt Ideal)
abbrev Weights : Type := (⟨S64x64, .f32⟩ : BufTy).Contents (Elt Ideal)
abbrev BiasVec : Type := (⟨S64, .f32⟩ : BufTy).Contents (Elt Ideal)

/-- The neighbourhood means of a feature array over the edge list, as the reference computes them. -/
abbrev means (x : Feat) (e : Edges) : Feat := val_main_v22 (F := Ideal) x e

/-- LAYER 1 of the reference is the combine of the features, their means, and the first layer's parameters. -/
theorem layer1 (x0 : Feat) (x1 : Edges) (x2 : Weights) (x3 : BiasVec) (x4 : Weights) :
    val_main_v30 (F := Ideal) x0 x1 x2 x3 x4 = combine (n := 100000) x0 (means x0 x1) x2 x3 x4 := by
  funext i
  obtain ⟨r, c, rfl⟩ : ∃ (r : Fin 100000) (c : Fin 64), i = ix2 r c := ⟨i 0, i 1, eq_ix2 i⟩
  have hl24 : ∀ k : Fin 64, lidx_main_v24 (ix2 r c) k = ix2 r k := fun k => funext fun a => Fin.ext (by
    match a with | ⟨0, _⟩ => rfl | ⟨1, _⟩ => rfl)
  have hr24 : ∀ k : Fin 64, idx_main_v23 (ridx_main_v24 (ix2 r c) k) = ix2 c k := fun k => funext fun a => Fin.ext (by
    match a with | ⟨0, _⟩ => rfl | ⟨1, _⟩ => rfl)
  have hb : idx_main_v25 (idx_main_v26 (ix2 r c)) = ix1 c := funext fun a => Fin.ext (by
    match a with | ⟨0, _⟩ => rfl)
  have hl29 : ∀ k : Fin 64, lidx_main_v29 (ix2 r c) k = ix2 r k := fun k => funext fun a => Fin.ext (by
    match a with | ⟨0, _⟩ => rfl | ⟨1, _⟩ => rfl)
  have hr29 : ∀ k : Fin 64, idx_main_v28 (ridx_main_v29 (ix2 r c) k) = ix2 c k := fun k => funext fun a => Fin.ext (by
    match a with | ⟨0, _⟩ => rfl | ⟨1, _⟩ => rfl)
  rw [val_main_v30_apply, val_main_v27_apply, val_main_v24_apply, val_main_v26_apply, val_main_v25_apply, val_main_v29_apply]
  simp only [val_main_v23_apply, val_main_v28_apply, hl24, hr24, hb, hl29, hr29]
  rfl

/-- LAYER 2 of the reference is the combine of layer 1's output, the second aggregation, and the second layer's
    parameters. -/
theorem layer2 (x0 : Feat) (x1 : Edges) (x2 : Weights) (x3 : BiasVec) (x4 x5 : Weights) (x6 : BiasVec) (x7 : Weights) :
    val_main_v57 (F := Ideal) x0 x1 x2 x3 x4 x5 x6 x7
      = combine (n := 100000) (val_main_v30 (F := Ideal) x0 x1 x2 x3 x4) (val_main_v49 (F := Ideal) x0 x1 x2 x3 x4) x5 x6 x7 := by
  funext i
  obtain ⟨r, c, rfl⟩ : ∃ (r : Fin 100000) (c : Fin 64), i = ix2 r c := ⟨i 0, i 1, eq_ix2 i⟩
  have hl51 : ∀ k : Fin 64, lidx_main_v51 (ix2 r c) k = ix2 r k := fun k => funext fun a => Fin.ext (by
    match a with | ⟨0, _⟩ => rfl | ⟨1, _⟩ => rfl)
  have hr51 : ∀ k : Fin 64, idx_main_v50 (ridx_main_v51 (ix2 r c) k) = ix2 c k := fun k => funext fun a => Fin.ext (by
    match a with | ⟨0, _⟩ => rfl | ⟨1, _⟩ => rfl)
  have hb : idx_main_v52 (idx_main_v53 (ix2 r c)) = ix1 c := funext fun a => Fin.ext (by
    match a with | ⟨0, _⟩ => rfl)
  have hl56 : ∀ k : Fin 64, lidx_main_v56 (ix2 r c) k = ix2 r k := fun k => funext fun a => Fin.ext (by
    match a with | ⟨0, _⟩ => rfl | ⟨1, _⟩ => rfl)
  have hr56 : ∀ k : Fin 64, idx_main_v55 (ridx_main_v56 (ix2 r c) k) = ix2 c k := fun k => funext fun a => Fin.ext (by
    match a with | ⟨0, _⟩ => rfl | ⟨1, _⟩ => rfl)
  rw [val_main_v57_apply, val_main_v54_apply, val_main_v51_apply, val_main_v53_apply, val_main_v52_apply, val_main_v56_apply]
  simp only [val_main_v50_apply, val_main_v55_apply, hl51, hr51, hb, hl56, hr56]
  rfl

/-- The second layer's means are the first layer's operations applied to the first layer's output: the two stretches
    of the reference are the same operations, constant for constant. -/
theorem means_again (x0 : Feat) (x1 : Edges) (x2 : Weights) (x3 : BiasVec) (x4 : Weights) :
    val_main_v49 (F := Ideal) x0 x1 x2 x3 x4 = means (val_main_v30 (F := Ideal) x0 x1 x2 x3 x4) x1 := by
  unfold val_main_v49 val_main_v48 val_main_v47 val_main_v46 val_main_v45 val_main_cst_9 val_main_v44 val_main_v43
    val_main_v42 val_main_cst_8 val_main_v41 val_main_v40 val_main_v39 val_main_v38 val_main_v37 val_main_c_7
    val_main_v36 val_main_v35 val_main_c_6 val_main_v34 val_main_v33 val_main_v32 val_main_cst_5 val_main_v31 val_main_cst_4
  unfold means val_main_v22 val_main_v21 val_main_v20 val_main_v19 val_main_v18 val_main_cst_3 val_main_v17 val_main_v16
    val_main_v15 val_main_cst_2 val_main_v14 val_main_v13 val_main_v12 val_main_v11 val_main_v10 val_main_c_1
    val_main_v9 val_main_v8 val_main_c val_main_v7 val_main_v6 val_main_v5 val_main_cst_0 val_main_v4 val_main_cst
  rfl

/-- THE REFERENCE'S RESULT: two layers of the combine, each over the means of its own input. -/
theorem result_eq (x0 : Feat) (x1 : Edges) (x2 : Weights) (x3 : BiasVec) (x4 x5 : Weights) (x6 : BiasVec) (x7 : Weights) :
    val_main_v57 (F := Ideal) x0 x1 x2 x3 x4 x5 x6 x7
      = combine (n := 100000) (combine (n := 100000) x0 (means x0 x1) x2 x3 x4)
          (means (combine (n := 100000) x0 (means x0 x1) x2 x3 x4) x1) x5 x6 x7 := by
  rw [layer2, means_again, layer1]

end Cert.ReferenceIdeal.RefValue

end
-- ==== Proof.Bridge.lean ====
/-
  The two programs aggregate in the same way.

  The neighbourhood means the kernel program computes on the host before each region (`HostValue.agg`) and the means
  the reference computes (`RefValue.means`) are the same operations on the same constants, one for one: the slices of
  the edge list, the wrap of negative sources, the gather of the source rows, the two scatter-adds at the destinations
  and the division by `max (degree) 1`.  Nothing is computed here: the two terms are one term.
-/
import proofs.«101802_j32547262169571_1_alg».proof.Proof.KernelHost
import proofs.«101802_j32547262169571_1_alg».proof.Proof.RefLayers

noncomputable section

namespace Cert.Bridge

open Idealize.ShloMosaic

theorem means_eq (x : Cert.KernelIdeal.HostValue.Feat) (e : Cert.KernelIdeal.HostValue.Edges) :
    Cert.KernelIdeal.HostValue.agg x e = Cert.ReferenceIdeal.RefValue.means x e := by
  unfold Cert.KernelIdeal.HostValue.agg Cert.KernelIdeal.HostValue.deg Cert.KernelIdeal.HostValue.dstIdx
    Cert.KernelIdeal.HostValue.srcIdx Cert.KernelIdeal.HostValue.srcRow Cert.KernelIdeal.HostValue.dstRow
  unfold Cert.ReferenceIdeal.RefValue.means Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_cst_3 Cert.ReferenceIdeal.Read.val_main_v17 Cert.ReferenceIdeal.Read.val_main_v16
    Cert.ReferenceIdeal.Read.val_main_v15 Cert.ReferenceIdeal.Read.val_main_cst_2 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_c_1 Cert.ReferenceIdeal.Read.val_main_v9
    Cert.ReferenceIdeal.Read.val_main_v8 Cert.ReferenceIdeal.Read.val_main_c Cert.ReferenceIdeal.Read.val_main_v7
    Cert.ReferenceIdeal.Read.val_main_v6 Cert.ReferenceIdeal.Read.val_main_v5 Cert.ReferenceIdeal.Read.val_main_cst_0
    Cert.ReferenceIdeal.Read.val_main_v4 Cert.ReferenceIdeal.Read.val_main_cst Cert.ReferenceIdeal.Read.val_main_v3
    Cert.ReferenceIdeal.Read.val_main_v2 Cert.ReferenceIdeal.Read.val_main_v1 Cert.ReferenceIdeal.Read.val_main_v0
  rfl

end Cert.Bridge

end
-- ==== Proof.lean ====
/-
  The certificate of a two-layer graph convolution (mean aggregation over the edges, then `means · wlᵀ + b + x · wrᵀ`)
  whose linear step runs as a kernel over blocks of 5000 rows, against the same network written with whole-array
  operations.

  Frames.  The two kernel programs' frames are the generated ones (two regions between stretches of host operations);
  the reference's is its generated run with the result dropped.

  Preserves.  The idealization rewrote nothing: the conjunct is `True`.

  Algebraic.  Over the extended reals the kernel program's result is two layers of `Cert.Sage.combine`, each over the
  neighbourhood means of its own input (`ResultValue.result_eq`: every block of rows a region writes is the block of
  the whole-array combine, and the blocks cover the array), and the reference's result is the same two layers
  (`RefValue.result_eq`).  The means are the same host operations in the two programs (`Bridge.means_eq`), and the
  combine is the same sums in the same grouping, so the two results are one function of the arguments — no law of
  arithmetic is used, and the precondition (finite inputs) is not needed.
-/
import proofs.«101802_j32547262169571_1_alg».proof.Defs
import proofs.«101802_j32547262169571_1_alg».proof.Proof.Gen.Kernel
import proofs.«101802_j32547262169571_1_alg».proof.Proof.Gen.Kernel.Skeleton
import proofs.«101802_j32547262169571_1_alg».proof.Proof.Gen.Kernel.Launch
import proofs.«101802_j32547262169571_1_alg».proof.Proof.Gen.Kernel.Points
import proofs.«101802_j32547262169571_1_alg».proof.Proof.Gen.Kernel.Frame
import proofs.«101802_j32547262169571_1_alg».proof.Proof.Gen.KernelIdeal
import proofs.«101802_j32547262169571_1_alg».proof.Proof.Gen.KernelIdeal.Skeleton
import proofs.«101802_j32547262169571_1_alg».proof.Proof.Gen.KernelIdeal.Launch
import proofs.«101802_j32547262169571_1_alg».proof.Proof.Gen.KernelIdeal.Points
import proofs.«101802_j32547262169571_1_alg».proof.Proof.Gen.KernelIdeal.Frame
import proofs.«101802_j32547262169571_1_alg».proof.Proof.Gen.ReferenceIdeal
import proofs.«101802_j32547262169571_1_alg».proof.Proof.Gen.Pre_finite_inputs
import proofs.«101802_j32547262169571_1_alg».proof.Proof.Gen.ReferenceIdeal.Run
import proofs.«101802_j32547262169571_1_alg».proof.Proof.Gen.ReferenceIdeal.Read
import proofs.«101802_j32547262169571_1_alg».proof.Proof.KernelRun
import proofs.«101802_j32547262169571_1_alg».proof.Proof.KernelValue
import proofs.«101802_j32547262169571_1_alg».proof.Proof.RefLayers
import proofs.«101802_j32547262169571_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the second layer of the first layer of the arguments. -/
theorem algebraic : Cert.algebraic_KernelIdeal_ReferenceIdeal := by
  intro m ρ m' ρ' _ hagree
  refine ⟨fun c => Cert.KernelIdeal.ResultValue.layer
      (Cert.KernelIdeal.ResultValue.layer (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ResultValue.result_eq m ρ c), (h c).2⟩)
      (Cert.KernelIdeal.NamedRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    beta_reduce
    rw [Cert.ReferenceIdeal.Read.val_main_v57_eq, Cert.ReferenceIdeal.RefValue.result_eq, a0, a1, a2, a3, a4, a5, a6, a7]
    unfold Cert.KernelIdeal.ResultValue.layer
    rw [Cert.Bridge.means_eq, Cert.Bridge.means_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
